-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024x1024 .f32) (main_arg9 : FVec F S1024x1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S1024x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x3072 : Shape := ⟨2, ![1024, 3072]⟩
abbrev S1024x2048 : Shape := ⟨2, ![1024, 2048]⟩
abbrev S2048 : Shape := ⟨1, ![2048]⟩
abbrev S1x2048 : Shape := ⟨2, ![1, 2048]⟩
abbrev S1x1024 : Shape := ⟨2, ![1, 1024]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 20
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x3072, .f32⟩
  | .hbm, ⟨12, _⟩ => ⟨S1024x3072, .bf16⟩
  | .hbm, ⟨13, _⟩ => ⟨S1024x2048, .f32⟩
  | .hbm, ⟨14, _⟩ => ⟨S1024x2048, .bf16⟩
  | .hbm, ⟨15, _⟩ => ⟨S1024x1024, .bf16⟩
  | .hbm, ⟨16, _⟩ => ⟨S2048, .f32⟩
  | .hbm, ⟨17, _⟩ => ⟨S1x2048, .f32⟩
  | .hbm, ⟨18, _⟩ => ⟨S1x1024, .f32⟩
  | .hbm, ⟨19, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x1024, .bf16⟩
  | .local _ .vmem, ⟨7, _⟩ => ⟨S1x2048, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024x1024_S1024x1024_S1024x2048_d1 : Shape.Concatenates [S1024x1024, S1024x1024] S1024x2048 1
  concatenates_S1024_S1024_S2048_d0 : Shape.Concatenates [S1024, S1024] S2048 0
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S256x3072_o0_0_S256x1024 : S256x3072.Slices ![0, 0] S256x1024
  slices_S256x2048_o0_0_S256x1024 : S256x2048.Slices ![0, 0] S256x1024
  slices_S1x2048_o0_0_S1x1024 : S1x2048.Slices ![0, 0] S1x1024
  broadcasts_S1x1024_S256x1024 : S1x1024.Broadcasts S256x1024
  slices_S256x3072_o0_1024_S256x1024 : S256x3072.Slices ![0, 1024] S256x1024
  slices_S256x2048_o0_1024_S256x1024 : S256x2048.Slices ![0, 1024] S256x1024
  slices_S1x2048_o0_1024_S1x1024 : S1x2048.Slices ![0, 1024] S1x1024
  slices_S256x3072_o0_2048_S256x1024 : S256x3072.Slices ![0, 2048] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  dot_S256x1024_S1024x3072_S256x3072_1_0_0_1_n_n_wf : DotDims.WF S256x1024 S1024x3072 S256x3072 [1] [0] [0] [1] [] []
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KernelEntry.lean ====
import proofs.«108619_j78795470012673_2_alg».proof.Proof.Gen.Kernel.Launch
import proofs.«108619_j78795470012673_2_alg».proof.Proof.Gen.Kernel.Skeleton
import proofs.«108619_j78795470012673_2_alg».proof.Proof.Gen.Kernel.Points
import Idealize.ShloMosaic.Lib.Pipeline.FrameBody
import Idealize.ShloMosaic.Lib.Ring
import Idealize.ShloMosaic.Lib.Tactic

/-!
# The recurrent cell's program up to its one region

Before the region the host lays the weights out for the cell: the three input-side weight matrices side by side
as one 1024 × 3072 matrix, the two gate matrices of the state side by side as one 1024 × 2048 matrix, the two gate
biases end to end as one row of 2048, the candidate's bias as a row of 1024 (each matrix also changes float format,
which changes no argument array). No host line writes an argument array, so the region finds all eleven arguments
as they were launched. The region then walks sixteen blocks of 256 rows of the input and of the state.
-/

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the region is entered -/

/-- Core `c`'s buffers when the region is entered: the launch memory after the eight host lines. -/
abbrev entry (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- `@main` is the eight host lines and then the region. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host line before the region writes argument 0: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 1: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 2: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 3: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 4: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 5: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 6: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 7: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 8: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 9: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 10: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every grid point, fetched there or not, for any
    proof data whose array is the entry contents and whose body leaves the block in place. -/
theorem held_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every grid point, fetched there or not, for any
    proof data whose array is the entry contents and whose body leaves the block in place. -/
theorem held_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every grid point, fetched there or not, for any
    proof data whose array is the entry contents and whose body leaves the block in place. -/
theorem held_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every grid point, fetched there or not, for any
    proof data whose array is the entry contents and whose body leaves the block in place. -/
theorem held_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every grid point, fetched there or not, for any
    proof data whose array is the entry contents and whose body leaves the block in place. -/
theorem held_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every grid point, fetched there or not, for any
    proof data whose array is the entry contents and whose body leaves the block in place. -/
theorem held_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every grid point, fetched there or not, for any
    proof data whose array is the entry contents and whose body leaves the block in place. -/
theorem held_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- In a final state of a frame run of any proof data whose arrays are the entry contents: the input and the state are
    staged inputs, which the region only reads; the nine weight and bias arguments are staged by no window, so the
    region leaves them as it found them; and each was found as launched. -/
theorem args_kept_at (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩

/-- So a frame run ends with every argument array as launched. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept_at m dats hA r h c) h

end Cert.Kernel.Cell

end
-- ==== Proof.KernelBody.lean ====
import proofs.«108619_j78795470012673_2_alg».proof.Proof.Gen.Kernel.Launch
import proofs.«108619_j78795470012673_2_alg».proof.Proof.Gen.Kernel.Skeleton
import proofs.«108619_j78795470012673_2_alg».proof.Proof.Gen.Kernel.Points
import Idealize.ShloMosaic.Lib.Pipeline.FrameBody
import Idealize.ShloMosaic.Lib.Ring
import Idealize.ShloMosaic.Lib.Tactic

/-!
# One step of the cell on a block of 256 rows

The body loads the block of the input and of the state, the three laid-out weight matrices and the two bias rows,
each whole; forms the update gate, the reset gate and the candidate state; and stores the new state's block whole:
`z · h + (1 − z) · tanh(…)`. It keeps nothing between grid points and changes none of the blocks it loads.
-/

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes: each staging buffer whole -/

abbrev rRows : Rect S256x1024 := Rect.unit (s := S256x1024) ![0, 0] S256x1024.size inb_S256x1024_S256x1024_0_0
abbrev rWx : Rect S1024x3072 := Rect.unit (s := S1024x3072) ![0, 0] S1024x3072.size inb_S1024x3072_S1024x3072_0_0
abbrev rWh : Rect S1024x2048 := Rect.unit (s := S1024x2048) ![0, 0] S1024x2048.size inb_S1024x2048_S1024x2048_0_0
abbrev rWc : Rect S1024x1024 := Rect.unit (s := S1024x1024) ![0, 0] S1024x1024.size inb_S1024x1024_S1024x1024_0_0
abbrev rBzr : Rect S1x2048 := Rect.unit (s := S1x2048) ![0, 0] S1x2048.size inb_S1x2048_S1x2048_0_0
abbrev rBh : Rect S1x1024 := Rect.unit (s := S1x1024) ![0, 0] S1x1024.size inb_S1x1024_S1x1024_0_0

/-! ## What the body leaves in the output window's buffer -/

/-- The new state's block from the seven input blocks: the body's one store, of `z · h + (1 − z) · candidate`. -/
def stepOut (x : Vec F S256x1024 .f32) (h : Vec F S256x1024 .f32) (wx : Vec F S1024x3072 .bf16) (wh : Vec F S1024x2048 .bf16)
    (wc : Vec F S1024x1024 .bf16) (bzr : Vec F S1x2048 .f32) (bh : Vec F S1x1024 .f32) : Vec F S256x1024 .f32 :=
  View.canon [⟨rRows, k0_pay1
    (k0_pay6 (View.ld x rRows) (View.ld h rRows) (View.ld wx rWx) (View.ld wh rWh) (View.ld bzr rBzr) (View.ld wc rWc) (View.ld bh rBh))
    (k0_pay7 (View.ld x rRows) (View.ld h rRows) (View.ld wx rWx) (View.ld wh rWh) (View.ld bzr rBzr))
    (k0_pay8 (View.ld x rRows) (View.ld h rRows) (View.ld wx rWx) (View.ld wh rWh) (View.ld bzr rBzr))⟩]

/-- The one store covers the buffer. -/
theorem stepOut_cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- On whole staging buffers, the seven inputs' at read contents and the output's at anything, the body runs to
    the continuation with the inputs' as they were and the output's at `stepOut` of them. -/
theorem step_runs (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x2048 .bf16) (harg4 : arg4.IsWhole)
    (arg5 : Memref sig .tc .vmem S1024x1024 .bf16) (harg5 : arg5.IsWhole) (arg6 : Memref sig .tc .vmem S1x2048 .f32) (harg6 : arg6.IsWhole)
    (arg7 : Memref sig .tc .vmem S1x1024 .f32) (harg7 : arg7.IsWhole) (arg8 : Memref sig .tc .vmem S256x1024 .f32) (harg8 : arg8.IsWhole)
    (x0 : Vec F S256x1024 .f32) (x1 : Vec F S256x1024 .f32) (x2 : Vec F S1024x3072 .bf16) (x3 : Vec F S1024x2048 .bf16)
    (x4 : Vec F S1024x1024 .bf16) (x5 : Vec F S1x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stepOut x0 x1 x2 x3 x4 x5 x6)) -∗ K ⟨⟩))
      ⊢ wp frame (wpE (defs₀ (F := F)) Variants.none c none) E (cc0__rnn_kernel i arg1 harg1 arg2 harg2 arg3 harg3 arg4 harg4 arg5 harg5 arg6 harg6 arg7 harg7 arg8 harg8) K := by
  simp only [cc0__rnn_kernel_eq_skeleton]; unfold cc0__rnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stepOut_cover _)

end Cert.Kernel.Cell

end
-- ==== Proof.KernelRun.lean ====
import proofs.«108619_j78795470012673_2_alg».proof.Proof.KernelEntry
import proofs.«108619_j78795470012673_2_alg».proof.Proof.KernelBody

/-!
# The region's run

At every grid point the seven input windows' staging buffers hold their blocks (the block of 256 rows of the input
and of the state at that point; the weights and biases whole, fetched once and left in place), and the body leaves
the output window's buffer at the new state's block, which the pipeline writes back. So the region terminates,
faults nowhere, and every argument array ends as launched.
-/

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block
    and the output's at the step's result on those blocks; the invariant is the scoped rest and the generator
    register, which the body never touches; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => stepOut (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

/-- The proof data's arrays are the entry contents (projected, never unfolded). -/
theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = stepOut (blockAt m c 0 t) (blockAt m c 1 t) (blockAt m c 2 t) (blockAt m c 3 t) (blockAt m c 4 t) (blockAt m c 5 t) (blockAt m c 6 t) := by dsimp only [dats]

theorem held_0 (c : Dev nD) (t : Fin cfg0.N) (d) : (dats m 0 c).before 0 t d = blockAt m c 0 t :=
  held_0_of m (dats m 0 c) (A_eq m c 0) (after_0 m c) t d
theorem held_1 (c : Dev nD) (t : Fin cfg0.N) (d) : (dats m 0 c).before 1 t d = blockAt m c 1 t :=
  held_1_of m (dats m 0 c) (A_eq m c 1) (after_1 m c) t d
theorem held_2 (c : Dev nD) (t : Fin cfg0.N) (d) : (dats m 0 c).before 2 t d = blockAt m c 2 t :=
  held_2_of m (dats m 0 c) (A_eq m c 2) (after_2 m c) t d
theorem held_3 (c : Dev nD) (t : Fin cfg0.N) (d) : (dats m 0 c).before 3 t d = blockAt m c 3 t :=
  held_3_of m (dats m 0 c) (A_eq m c 3) (after_3 m c) t d
theorem held_4 (c : Dev nD) (t : Fin cfg0.N) (d) : (dats m 0 c).before 4 t d = blockAt m c 4 t :=
  held_4_of m (dats m 0 c) (A_eq m c 4) (after_4 m c) t d
theorem held_5 (c : Dev nD) (t : Fin cfg0.N) (d) : (dats m 0 c).before 5 t d = blockAt m c 5 t :=
  held_5_of m (dats m 0 c) (A_eq m c 5) (after_5 m c) t d
theorem held_6 (c : Dev nD) (t : Fin cfg0.N) (d) : (dats m 0 c).before 6 t d = blockAt m c 6 t :=
  held_6_of m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the step's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step_runs c Set.univ (grid0.coords t) _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `@main` terminates, and ends with every array
    of the pipeline at what the proof data computes and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := A_eq m) (hΦ := fun _ _ => rfl)

/-- The program runs to the end, faults nowhere, and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_kept_of m ρ (dats m) (A_eq m) (run_main m ρ)

end Cert.Kernel.Cell

end
-- ==== Proof.KernelIdealEntry.lean ====
import proofs.«108619_j78795470012673_2_alg».proof.Proof.Gen.KernelIdeal.Launch
import proofs.«108619_j78795470012673_2_alg».proof.Proof.Gen.KernelIdeal.Skeleton
import proofs.«108619_j78795470012673_2_alg».proof.Proof.Gen.KernelIdeal.Points
import Idealize.ShloMosaic.Lib.Pipeline.FrameBody
import Idealize.ShloMosaic.Lib.Ring
import Idealize.ShloMosaic.Lib.Tactic

/-!
# The recurrent cell's program up to its one region

Before the region the host lays the weights out for the cell: the three input-side weight matrices side by side
as one 1024 × 3072 matrix, the two gate matrices of the state side by side as one 1024 × 2048 matrix, the two gate
biases end to end as one row of 2048, the candidate's bias as a row of 1024 (each matrix also changes float format,
which changes no argument array). No host line writes an argument array, so the region finds all eleven arguments
as they were launched. The region then walks sixteen blocks of 256 rows of the input and of the state.
-/

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the region is entered -/

/-- Core `c`'s buffers when the region is entered: the launch memory after the eight host lines. -/
abbrev entry (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- `@main` is the eight host lines and then the region. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host line before the region writes argument 0: the region finds it as launched. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 1: the region finds it as launched. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 2: the region finds it as launched. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 3: the region finds it as launched. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 4: the region finds it as launched. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 5: the region finds it as launched. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 6: the region finds it as launched. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 7: the region finds it as launched. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 8: the region finds it as launched. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 9: the region finds it as launched. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 10: the region finds it as launched. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every grid point, fetched there or not, for any
    proof data whose array is the entry contents and whose body leaves the block in place. -/
theorem held_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every grid point, fetched there or not, for any
    proof data whose array is the entry contents and whose body leaves the block in place. -/
theorem held_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every grid point, fetched there or not, for any
    proof data whose array is the entry contents and whose body leaves the block in place. -/
theorem held_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every grid point, fetched there or not, for any
    proof data whose array is the entry contents and whose body leaves the block in place. -/
theorem held_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every grid point, fetched there or not, for any
    proof data whose array is the entry contents and whose body leaves the block in place. -/
theorem held_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every grid point, fetched there or not, for any
    proof data whose array is the entry contents and whose body leaves the block in place. -/
theorem held_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every grid point, fetched there or not, for any
    proof data whose array is the entry contents and whose body leaves the block in place. -/
theorem held_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- In a final state of a frame run of any proof data whose arrays are the entry contents: the input and the state are
    staged inputs, which the region only reads; the nine weight and bias arguments are staged by no window, so the
    region leaves them as it found them; and each was found as launched. -/
theorem args_kept_at (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩

/-- So a frame run ends with every argument array as launched. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept_at m dats hA r h c) h

end Cert.KernelIdeal.Cell

end
-- ==== Proof.KernelIdealBody.lean ====
import proofs.«108619_j78795470012673_2_alg».proof.Proof.Gen.KernelIdeal.Launch
import proofs.«108619_j78795470012673_2_alg».proof.Proof.Gen.KernelIdeal.Skeleton
import proofs.«108619_j78795470012673_2_alg».proof.Proof.Gen.KernelIdeal.Points
import Idealize.ShloMosaic.Lib.Pipeline.FrameBody
import Idealize.ShloMosaic.Lib.Ring
import Idealize.ShloMosaic.Lib.Tactic

/-!
# One step of the cell on a block of 256 rows

The body loads the block of the input and of the state, the three laid-out weight matrices and the two bias rows,
each whole; forms the update gate, the reset gate and the candidate state; and stores the new state's block whole:
`z · h + (1 − z) · tanh(…)`. It keeps nothing between grid points and changes none of the blocks it loads.
-/

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes: each staging buffer whole -/

abbrev rRows : Rect S256x1024 := Rect.unit (s := S256x1024) ![0, 0] S256x1024.size inb_S256x1024_S256x1024_0_0
abbrev rWx : Rect S1024x3072 := Rect.unit (s := S1024x3072) ![0, 0] S1024x3072.size inb_S1024x3072_S1024x3072_0_0
abbrev rWh : Rect S1024x2048 := Rect.unit (s := S1024x2048) ![0, 0] S1024x2048.size inb_S1024x2048_S1024x2048_0_0
abbrev rWc : Rect S1024x1024 := Rect.unit (s := S1024x1024) ![0, 0] S1024x1024.size inb_S1024x1024_S1024x1024_0_0
abbrev rBzr : Rect S1x2048 := Rect.unit (s := S1x2048) ![0, 0] S1x2048.size inb_S1x2048_S1x2048_0_0
abbrev rBh : Rect S1x1024 := Rect.unit (s := S1x1024) ![0, 0] S1x1024.size inb_S1x1024_S1x1024_0_0

/-! ## What the body leaves in the output window's buffer -/

/-- The new state's block from the seven input blocks: the body's one store, of `z · h + (1 − z) · candidate`. -/
def stepOut (x : Vec F S256x1024 .f32) (h : Vec F S256x1024 .f32) (wx : Vec F S1024x3072 .bf16) (wh : Vec F S1024x2048 .bf16)
    (wc : Vec F S1024x1024 .bf16) (bzr : Vec F S1x2048 .f32) (bh : Vec F S1x1024 .f32) : Vec F S256x1024 .f32 :=
  View.canon [⟨rRows, k0_pay1
    (k0_pay6 (View.ld x rRows) (View.ld h rRows) (View.ld wx rWx) (View.ld wh rWh) (View.ld bzr rBzr) (View.ld wc rWc) (View.ld bh rBh))
    (k0_pay7 (View.ld x rRows) (View.ld h rRows) (View.ld wx rWx) (View.ld wh rWh) (View.ld bzr rBzr))
    (k0_pay8 (View.ld x rRows) (View.ld h rRows) (View.ld wx rWx) (View.ld wh rWh) (View.ld bzr rBzr))⟩]

/-- The one store covers the buffer. -/
theorem stepOut_cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- On whole staging buffers, the seven inputs' at read contents and the output's at anything, the body runs to
    the continuation with the inputs' as they were and the output's at `stepOut` of them. -/
theorem step_runs (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x2048 .bf16) (harg4 : arg4.IsWhole)
    (arg5 : Memref sig .tc .vmem S1024x1024 .bf16) (harg5 : arg5.IsWhole) (arg6 : Memref sig .tc .vmem S1x2048 .f32) (harg6 : arg6.IsWhole)
    (arg7 : Memref sig .tc .vmem S1x1024 .f32) (harg7 : arg7.IsWhole) (arg8 : Memref sig .tc .vmem S256x1024 .f32) (harg8 : arg8.IsWhole)
    (x0 : Vec F S256x1024 .f32) (x1 : Vec F S256x1024 .f32) (x2 : Vec F S1024x3072 .bf16) (x3 : Vec F S1024x2048 .bf16)
    (x4 : Vec F S1024x1024 .bf16) (x5 : Vec F S1x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stepOut x0 x1 x2 x3 x4 x5 x6)) -∗ K ⟨⟩))
      ⊢ wp frame (wpE (defs₀ (F := F)) Variants.none c none) E (cc0__rnn_kernel i arg1 harg1 arg2 harg2 arg3 harg3 arg4 harg4 arg5 harg5 arg6 harg6 arg7 harg7 arg8 harg8) K := by
  simp only [cc0__rnn_kernel_eq_skeleton]; unfold cc0__rnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stepOut_cover _)

end Cert.KernelIdeal.Cell

end
-- ==== Proof.KernelIdealRun.lean ====
import proofs.«108619_j78795470012673_2_alg».proof.Proof.KernelIdealEntry
import proofs.«108619_j78795470012673_2_alg».proof.Proof.KernelIdealBody

/-!
# The region's run

At every grid point the seven input windows' staging buffers hold their blocks (the block of 256 rows of the input
and of the state at that point; the weights and biases whole, fetched once and left in place), and the body leaves
the output window's buffer at the new state's block, which the pipeline writes back. So the region terminates,
faults nowhere, and every argument array ends as launched.
-/

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block
    and the output's at the step's result on those blocks; the invariant is the scoped rest and the generator
    register, which the body never touches; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => stepOut (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

/-- The proof data's arrays are the entry contents (projected, never unfolded). -/
theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = stepOut (blockAt m c 0 t) (blockAt m c 1 t) (blockAt m c 2 t) (blockAt m c 3 t) (blockAt m c 4 t) (blockAt m c 5 t) (blockAt m c 6 t) := by dsimp only [dats]

theorem held_0 (c : Dev nD) (t : Fin cfg0.N) (d) : (dats m 0 c).before 0 t d = blockAt m c 0 t :=
  held_0_of m (dats m 0 c) (A_eq m c 0) (after_0 m c) t d
theorem held_1 (c : Dev nD) (t : Fin cfg0.N) (d) : (dats m 0 c).before 1 t d = blockAt m c 1 t :=
  held_1_of m (dats m 0 c) (A_eq m c 1) (after_1 m c) t d
theorem held_2 (c : Dev nD) (t : Fin cfg0.N) (d) : (dats m 0 c).before 2 t d = blockAt m c 2 t :=
  held_2_of m (dats m 0 c) (A_eq m c 2) (after_2 m c) t d
theorem held_3 (c : Dev nD) (t : Fin cfg0.N) (d) : (dats m 0 c).before 3 t d = blockAt m c 3 t :=
  held_3_of m (dats m 0 c) (A_eq m c 3) (after_3 m c) t d
theorem held_4 (c : Dev nD) (t : Fin cfg0.N) (d) : (dats m 0 c).before 4 t d = blockAt m c 4 t :=
  held_4_of m (dats m 0 c) (A_eq m c 4) (after_4 m c) t d
theorem held_5 (c : Dev nD) (t : Fin cfg0.N) (d) : (dats m 0 c).before 5 t d = blockAt m c 5 t :=
  held_5_of m (dats m 0 c) (A_eq m c 5) (after_5 m c) t d
theorem held_6 (c : Dev nD) (t : Fin cfg0.N) (d) : (dats m 0 c).before 6 t d = blockAt m c 6 t :=
  held_6_of m (dats m 0 c) (A_eq m c 6) (after_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the step's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step_runs c Set.univ (grid0.coords t) _ _ _ _ _ _ _ _ _ _ _ _ _ _ _ _ (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of `@main` terminates, and ends with every array
    of the pipeline at what the proof data computes and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := A_eq m) (hΦ := fun _ _ => rfl)

/-- The program runs to the end, faults nowhere, and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_kept_of m ρ (dats m) (A_eq m) (run_main m ρ)

end Cert.KernelIdeal.Cell

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.CellStep.lean ====
import proofs.«108619_j78795470012673_2_alg».proof.Proof.KernelIdealBody
import proofs.«108619_j78795470012673_2_alg».proof.Proof.LibDotSum
import Idealize.ShloMosaic.Lib.Pipeline.Value
import Idealize.ShloMosaic.Lib.ValueIdx
import Idealize.ShloMosaic.Lib.ValueLayout
import Idealize.ShloMosaic.PureOps.Ideal.Laws

/-!
# One step on a block, entry by entry

Over the extended reals the body's arithmetic on a block of 256 rows reads, at row `u` and column `q`:

* the fused input-side product at column `j` of 3072 is `∑ₖ x(u,k) · wx(k,j)`, and the update gate, the reset gate
  and the candidate take its columns `q`, `1024 + q` and `2048 + q`;
* the fused state-side product at column `j` of 2048 is `∑ₖ h(u,k) · wh(k,j)`, and the two gates take its columns
  `q` and `1024 + q`; the fused bias row likewise;
* the candidate's own product is `∑ₖ (r(u,k) · h(u,k)) · wc(k,q)`;
* the result is `z · h + (1 − z) · tanh(…)`.

A change of float format is the identity, and a product into a zero accumulator is the plain sum.
-/

noncomputable section

namespace Cert.KernelIdeal.Step

open Cert.KernelIdeal Cert.KernelIdeal.Gen Cert.KernelIdeal.Cell Idealize.ShloMosaic Idealize.ShloMosaic.ValueIdx

/-! ## The three products as plain sums -/

/-- The fused input-side product: entry `(u, j)` is `∑ₖ x(u,k) · wx(k,j)`. -/
theorem fusedX (v0 : FVec Ideal S256x1024 .f32) (v4 : FVec Ideal S1024x3072 .bf16) (u : Fin 256) (j : Fin 3072) :
    k0_pay2 (F := Ideal) v0 v4 (ix2 u j) = ∑ k : Fin 1024, v0 (ix2 u k) * v4 (ix2 k j) := by
  unfold k0_pay2
  rw [shapeCast_self]
  refine (Ideal.matmul_constant_zero_apply _ none _ _ _).trans ?_
  refine (Cert.LibDotSum.sum_contr_eq_sum_fin _ rfl rfl (fun _ _ => rfl) (fun _ _ => rfl) (fun _ _ => rfl) (fun _ _ => rfl) _ _ (ix2 u j)).trans ?_
  rfl

/-- The fused state-side product: entry `(u, j)` is `∑ₖ h(u,k) · wh(k,j)`. -/
theorem fusedH (v1 : FVec Ideal S256x1024 .f32) (v7 : FVec Ideal S1024x2048 .bf16) (u : Fin 256) (j : Fin 2048) :
    k0_pay3 (F := Ideal) v1 v7 (ix2 u j) = ∑ k : Fin 1024, v1 (ix2 u k) * v7 (ix2 k j) := by
  unfold k0_pay3
  rw [shapeCast_self]
  refine (Ideal.matmul_constant_zero_apply _ none _ _ _).trans ?_
  refine (Cert.LibDotSum.sum_contr_eq_sum_fin _ rfl rfl (fun _ _ => rfl) (fun _ _ => rfl) (fun _ _ => rfl) (fun _ _ => rfl) _ _ (ix2 u j)).trans ?_
  rfl

/-- The fused bias row is the loaded row. -/
theorem biasRow (v10 : FVec Ideal S1x2048 .f32) : k0_pay4 (F := Ideal) v10 = v10 := by
  unfold k0_pay4
  exact shapeCast_self _ _

/-! ## The gates on a block -/

/-- A gate on a block: the logistic function of the two fused products' column `o + q` and the bias row's. -/
def gateBlk (v0 : FVec Ideal S256x1024 .f32) (v1 : FVec Ideal S256x1024 .f32) (v4 : FVec Ideal S1024x3072 .bf16) (v7 : FVec Ideal S1024x2048 .bf16) (v10 : FVec Ideal S1x2048 .f32) (o : Nat) (ho : o + 1024 ≤ 2048) (u : Fin 256) (q : Fin 1024) : EReal :=
  Ideal.logistic ((∑ k : Fin 1024, v0 (ix2 u k) * v4 (ix2 k (⟨o + q.val, by have := q.isLt; omega⟩ : Fin 3072)))
    + (∑ k : Fin 1024, v1 (ix2 u k) * v7 (ix2 k (⟨o + q.val, by have := q.isLt; omega⟩ : Fin 2048)))
    + v10 (ix2 (0 : Fin 1) (⟨o + q.val, by have := q.isLt; omega⟩ : Fin 2048)))

/-- The update gate takes the first 1024 columns. -/
theorem updateBlk (v0 : FVec Ideal S256x1024 .f32) (v1 : FVec Ideal S256x1024 .f32) (v4 : FVec Ideal S1024x3072 .bf16) (v7 : FVec Ideal S1024x2048 .bf16) (v10 : FVec Ideal S1x2048 .f32) (u : Fin 256) (q : Fin 1024) :
    k0_pay5 (F := Ideal) v0 v1 v4 v7 v10 (ix2 u q) = gateBlk v0 v1 v4 v7 v10 0 (by omega) u q := by
  unfold k0_pay5 gateBlk
  show Ideal.logistic ((extractStridedSlice S256x1024 ![0, 0] (k0_pay2 (F := Ideal) v0 v4) slices_S256x3072_o0_0_S256x1024 (ix2 u q)
      + extractStridedSlice S256x1024 ![0, 0] (k0_pay3 (F := Ideal) v1 v7) slices_S256x2048_o0_0_S256x1024 (ix2 u q))
      + broadcastTo S256x1024 (extractStridedSlice S1x1024 ![0, 0] (k0_pay4 (F := Ideal) v10) slices_S1x2048_o0_0_S1x1024) broadcasts_S1x1024_S256x1024 (ix2 u q)) = _
  rw [slice2_axis1_apply 0 (k0_pay2 (F := Ideal) v0 v4) slices_S256x3072_o0_0_S256x1024 u q ⟨0 + q.val, by have := q.isLt; omega⟩ rfl,
    slice2_axis1_apply 0 (k0_pay3 (F := Ideal) v1 v7) slices_S256x2048_o0_0_S256x1024 u q ⟨0 + q.val, by have := q.isLt; omega⟩ rfl,
    broadcastTo_1b_ab_apply _ broadcasts_S1x1024_S256x1024 u q,
    slice2_axis1_apply 0 (k0_pay4 (F := Ideal) v10) slices_S1x2048_o0_0_S1x1024 (0 : Fin 1) q ⟨0 + q.val, by have := q.isLt; omega⟩ rfl,
    fusedX, fusedH, biasRow]

/-! ## The candidate and the new state on a block -/

/-- The reset gate, inside the candidate: the second 1024 columns. -/
def resetBlk (v0 : FVec Ideal S256x1024 .f32) (v1 : FVec Ideal S256x1024 .f32) (v4 : FVec Ideal S1024x3072 .bf16) (v7 : FVec Ideal S1024x2048 .bf16) (v10 : FVec Ideal S1x2048 .f32) (u : Fin 256) (q : Fin 1024) : EReal :=
  gateBlk v0 v1 v4 v7 v10 1024 (by omega) u q

/-- The candidate state on a block. -/
def candBlk (v0 : FVec Ideal S256x1024 .f32) (v1 : FVec Ideal S256x1024 .f32) (v4 : FVec Ideal S1024x3072 .bf16) (v7 : FVec Ideal S1024x2048 .bf16) (v10 : FVec Ideal S1x2048 .f32) (v29 : FVec Ideal S1024x1024 .bf16) (v33 : FVec Ideal S1x1024 .f32) (u : Fin 256) (q : Fin 1024) : EReal :=
  Ideal.tanh ((∑ k : Fin 1024, v0 (ix2 u k) * v4 (ix2 k (⟨2048 + q.val, by have := q.isLt; omega⟩ : Fin 3072)))
    + (∑ k : Fin 1024, (resetBlk v0 v1 v4 v7 v10 u k * v1 (ix2 u k)) * v29 (ix2 k q))
    + v33 (ix2 (0 : Fin 1) q))

/-- The reset gate times the state, as the candidate's product reads it at `(u, k)`. -/
theorem resetTimesState (v0 : FVec Ideal S256x1024 .f32) (v1 : FVec Ideal S256x1024 .f32) (v4 : FVec Ideal S1024x3072 .bf16) (v7 : FVec Ideal S1024x2048 .bf16) (v10 : FVec Ideal S1x2048 .f32) (u : Fin 256) (k : Fin 1024) :
    (logistic (addf (addf (extractStridedSlice S256x1024 ![0, 1024] (k0_pay2 (F := Ideal) v0 v4) slices_S256x3072_o0_1024_S256x1024)
        (extractStridedSlice S256x1024 ![0, 1024] (k0_pay3 (F := Ideal) v1 v7) slices_S256x2048_o0_1024_S256x1024))
        (broadcastTo S256x1024 (extractStridedSlice S1x1024 ![0, 1024] (k0_pay4 (F := Ideal) v10) slices_S1x2048_o0_1024_S1x1024) broadcasts_S1x1024_S256x1024)) : FVec Ideal S256x1024 .f32) (ix2 u k)
      = resetBlk v0 v1 v4 v7 v10 u k := by
  unfold resetBlk gateBlk
  show Ideal.logistic ((extractStridedSlice S256x1024 ![0, 1024] (k0_pay2 (F := Ideal) v0 v4) slices_S256x3072_o0_1024_S256x1024 (ix2 u k)
      + extractStridedSlice S256x1024 ![0, 1024] (k0_pay3 (F := Ideal) v1 v7) slices_S256x2048_o0_1024_S256x1024 (ix2 u k))
      + broadcastTo S256x1024 (extractStridedSlice S1x1024 ![0, 1024] (k0_pay4 (F := Ideal) v10) slices_S1x2048_o0_1024_S1x1024) broadcasts_S1x1024_S256x1024 (ix2 u k)) = _
  rw [slice2_axis1_apply 1024 (k0_pay2 (F := Ideal) v0 v4) slices_S256x3072_o0_1024_S256x1024 u k ⟨1024 + k.val, by have := k.isLt; omega⟩ rfl,
    slice2_axis1_apply 1024 (k0_pay3 (F := Ideal) v1 v7) slices_S256x2048_o0_1024_S256x1024 u k ⟨1024 + k.val, by have := k.isLt; omega⟩ rfl,
    broadcastTo_1b_ab_apply _ broadcasts_S1x1024_S256x1024 u k,
    slice2_axis1_apply 1024 (k0_pay4 (F := Ideal) v10) slices_S1x2048_o0_1024_S1x1024 (0 : Fin 1) k ⟨1024 + k.val, by have := k.isLt; omega⟩ rfl,
    fusedX, fusedH, biasRow]

/-- The candidate on a block: column `2048 + q` of the fused input-side product, plus the product of the reset
    state with the candidate's own weights, plus its bias, under `tanh`. -/
theorem candidateBlk (v0 : FVec Ideal S256x1024 .f32) (v1 : FVec Ideal S256x1024 .f32) (v4 : FVec Ideal S1024x3072 .bf16) (v7 : FVec Ideal S1024x2048 .bf16) (v10 : FVec Ideal S1x2048 .f32) (v29 : FVec Ideal S1024x1024 .bf16) (v33 : FVec Ideal S1x1024 .f32) (u : Fin 256) (q : Fin 1024) :
    k0_pay6 (F := Ideal) v0 v1 v4 v7 v10 v29 v33 (ix2 u q) = candBlk v0 v1 v4 v7 v10 v29 v33 u q := by
  unfold k0_pay6 candBlk
  refine congrArg Ideal.tanh (congrArg₂ (· + ·) (congrArg₂ (· + ·) ?_ ?_) ?_)
  · exact (slice2_axis1_apply 2048 (k0_pay2 (F := Ideal) v0 v4) slices_S256x3072_o0_2048_S256x1024 u q ⟨2048 + q.val, by have := q.isLt; omega⟩ rfl).trans
      (fusedX v0 v4 u _)
  · refine (Ideal.matmul_constant_zero_apply _ none _ _ _).trans ?_
    refine (Cert.LibDotSum.sum_contr_eq_sum_fin _ rfl rfl (fun _ _ => rfl) (fun _ _ => rfl) (fun _ _ => rfl) (fun _ _ => rfl) _ _ (ix2 u q)).trans ?_
    refine Finset.sum_congr rfl fun k _ => ?_
    refine congrArg₂ (· * ·) ?_ (congrFun (shapeCast_self v29 _) _)
    exact congrArg (· * v1 (ix2 u k)) (resetTimesState v0 v1 v4 v7 v10 u k)
  · exact (broadcastTo_1b_ab_apply _ broadcasts_S1x1024_S256x1024 u q).trans (congrFun (shapeCast_self v33 _) _)

/-- The new state on a block: `z · h + (1 − z) · candidate`. -/
def outBlk (v0 : FVec Ideal S256x1024 .f32) (v1 : FVec Ideal S256x1024 .f32) (v4 : FVec Ideal S1024x3072 .bf16) (v7 : FVec Ideal S1024x2048 .bf16) (v10 : FVec Ideal S1x2048 .f32) (v29 : FVec Ideal S1024x1024 .bf16) (v33 : FVec Ideal S1x1024 .f32) (u : Fin 256) (q : Fin 1024) : EReal :=
  gateBlk v0 v1 v4 v7 v10 0 (by omega) u q * v1 (ix2 u q)
    + (Ideal.ofBits .f32 0x3F800000#32 - gateBlk v0 v1 v4 v7 v10 0 (by omega) u q) * candBlk v0 v1 v4 v7 v10 v29 v33 u q

theorem zeroOffsets : (![0, 0] : Fin 2 → Nat) = fun _ => 0 := funext fun a => by fin_cases a <;> rfl

/-- What the body stores, at row `u` and column `q` of the block. -/
theorem stepOut_apply (x h : Vec Ideal S256x1024 .f32) (wx : Vec Ideal S1024x3072 .bf16) (wh : Vec Ideal S1024x2048 .bf16)
    (wc : Vec Ideal S1024x1024 .bf16) (bzr : Vec Ideal S1x2048 .f32) (bh : Vec Ideal S1x1024 .f32) (u : Fin 256) (q : Fin 1024) :
    stepOut (F := Ideal) x h wx wh wc bzr bh (ix2 u q) = outBlk x h wx wh bzr wc bh u q := by
  unfold stepOut
  rw [View.canon_unit_zero zeroOffsets]
  simp only [View.ld_unit_zero (S := S256x1024) zeroOffsets, View.ld_unit_zero (S := S1024x3072) zeroOffsets,
    View.ld_unit_zero (S := S1024x2048) zeroOffsets, View.ld_unit_zero (S := S1024x1024) zeroOffsets,
    View.ld_unit_zero (S := S1x2048) zeroOffsets, View.ld_unit_zero (S := S1x1024) zeroOffsets]
  unfold k0_pay1 k0_pay7 k0_pay8 outBlk
  refine congrArg₂ (· + ·) (congrArg (· * h (ix2 u q)) (updateBlk x h wx wh bzr u q)) (congrArg₂ (· * ·) ?_ (candidateBlk x h wx wh bzr wc bh u q))
  exact congrArg (Ideal.ofBits .f32 0x3F800000#32 - ·) (updateBlk x h wx wh bzr u q)

end Cert.KernelIdeal.Step

end
-- ==== Proof.CellSpec.lean ====
import Idealize.ShloMosaic.PureOps.Ideal
import Idealize.ShloMosaic.Lib.ValueIdx

/-!
# The gated recurrent cell, entry by entry

For a batch of 4096 rows and width 1024, with input `x`, state `h`, three pairs of weight matrices and three biases:

* update gate      `z = σ(x·Wzx + h·Wzh + bz)`,
* reset gate       `r = σ(x·Wrx + h·Wrh + br)`,
* candidate state  `c = tanh(x·Whx + (r ⊙ h)·Whrh + bh)`,
* new state        `h' = z ⊙ h + (1 − z) ⊙ c`,

over the extended reals, every product of matrices the plain sum over the 1024 contracted entries, the sums added in
the order written. Entry `(p, q)` of each gate depends on row `p` of `x` and of `h` only, which is why the cell can
be computed block of rows by block of rows.
-/

noncomputable section

namespace Cert.Cell

open Idealize.ShloMosaic Idealize.ShloMosaic.ValueIdx

/-- A batch of rows: 4096 × 1024 extended reals. -/
abbrev Rows : Type := (⟨2, ![4096, 1024]⟩ : Shape).Idx → EReal
/-- A weight matrix: 1024 × 1024. -/
abbrev Weights : Type := (⟨2, ![1024, 1024]⟩ : Shape).Idx → EReal
/-- A bias: 1024 entries. -/
abbrev Bias : Type := (⟨1, ![1024]⟩ : Shape).Idx → EReal

/-- The single-precision word of `1.0` denotes the number one. -/
theorem one_word : Ideal.ofBits .f32 0x3F800000#32 = 1 := by
  simp [Ideal.ofBits, Ideal.ieee, -EReal.coe_mul]; norm_num

/-- The logistic function spelt out as a quotient, with the two ones as single-precision words, is the logistic
    function: `1 / (1 + e^(−s))`. -/
theorem quotient_is_logistic (s : EReal) :
    Ideal.div (Ideal.ofBits .f32 0x3F800000#32) (Ideal.ofBits .f32 0x3F800000#32 + Ideal.exp (-s)) = Ideal.logistic s := by
  rw [one_word]; rfl

/-- A gate before its activation, at row `p` and column `q`: `(x·Wx)(p,q) + (h·Wh)(p,q) + b(q)`. -/
def pre (x h : Rows) (Wx Wh : Weights) (b : Bias) (p : Fin 4096) (q : Fin 1024) : EReal :=
  (∑ k : Fin 1024, x (ix2 p k) * Wx (ix2 k q)) + (∑ k : Fin 1024, h (ix2 p k) * Wh (ix2 k q)) + b (ix1 q)

/-- A gate: the logistic function of `pre`. -/
def gate (x h : Rows) (Wx Wh : Weights) (b : Bias) (p : Fin 4096) (q : Fin 1024) : EReal :=
  Ideal.logistic (pre x h Wx Wh b p q)

/-- The candidate state: `tanh((x·Whx)(p,q) + ((r ⊙ h)·Whrh)(p,q) + bh(q))` with `r` the reset gate. -/
def candidate (x h : Rows) (Wrx Wrh : Weights) (br : Bias) (Whx Whrh : Weights) (bh : Bias) (p : Fin 4096) (q : Fin 1024) : EReal :=
  Ideal.tanh ((∑ k : Fin 1024, x (ix2 p k) * Whx (ix2 k q))
    + (∑ k : Fin 1024, (gate x h Wrx Wrh br p k * h (ix2 p k)) * Whrh (ix2 k q)) + bh (ix1 q))

/-- The new state: `z · h + (1 − z) · c`, the one a single-precision word. -/
def next (x h : Rows) (Wzx Wzh : Weights) (bz : Bias) (Wrx Wrh : Weights) (br : Bias) (Whx Whrh : Weights) (bh : Bias)
    (p : Fin 4096) (q : Fin 1024) : EReal :=
  gate x h Wzx Wzh bz p q * h (ix2 p q)
    + (Ideal.ofBits .f32 0x3F800000#32 - gate x h Wzx Wzh bz p q) * candidate x h Wrx Wrh br Whx Whrh bh p q

/-- The new state as a whole array. -/
def nextRows (x h : Rows) (Wzx Wzh : Weights) (bz : Bias) (Wrx Wrh : Weights) (br : Bias) (Whx Whrh : Weights) (bh : Bias) : Rows :=
  fun j => next x h Wzx Wzh bz Wrx Wrh br Whx Whrh bh (j 0) (j 1)

end Cert.Cell

end
-- ==== Proof.CellBlocks.lean ====
import proofs.«108619_j78795470012673_2_alg».proof.Proof.KernelIdealRun
import proofs.«108619_j78795470012673_2_alg».proof.Proof.CellStep
import proofs.«108619_j78795470012673_2_alg».proof.Proof.CellSpec
import Idealize.ShloMosaic.Lib.StableHlo.Run
import Idealize.ShloMosaic.Lib.Pipeline.Value
import Idealize.ShloMosaic.Lib.ValueIdx
import Idealize.ShloMosaic.Lib.ValueLayout

/-!
# A block's step is the cell on its rows

At grid point `t` the input's and the state's windows hold rows `256 t … 256 t + 255` of their arrays, and the five
weight and bias windows hold their whole arrays, which the host laid out before the region:

* columns `q`, `1024 + q`, `2048 + q` of the fused input-side matrix are column `q` of `Wzx`, `Wrx`, `Whx`;
* columns `q`, `1024 + q` of the fused state-side matrix are column `q` of `Wzh`, `Wrh`;
* entries `q`, `1024 + q` of the fused bias row are entry `q` of `bz`, `br`; the candidate's bias row is `bh`.

So every sum the step forms at row `u` of the block is the sum the cell forms at row `256 t + u`, term by term,
and the step's result at `(u, q)` is the cell's new state at `(256 t + u, q)`.
-/

set_option maxRecDepth 16384

noncomputable section

namespace Cert.KernelIdeal.Blocks

open Cert.KernelIdeal Cert.KernelIdeal.Gen Cert.KernelIdeal.Cell Cert.KernelIdeal.Step
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-! ## The eleven argument arrays on a core, as launched -/

abbrev aX (c : Dev nD) : Cert.Cell.Rows := m ((c : Thread nD τ).loc main_arg0)
abbrev aH (c : Dev nD) : Cert.Cell.Rows := m ((c : Thread nD τ).loc main_arg1)
abbrev aWzx (c : Dev nD) : Cert.Cell.Weights := m ((c : Thread nD τ).loc main_arg2)
abbrev aWzh (c : Dev nD) : Cert.Cell.Weights := m ((c : Thread nD τ).loc main_arg3)
abbrev aBz (c : Dev nD) : Cert.Cell.Bias := m ((c : Thread nD τ).loc main_arg4)
abbrev aWrx (c : Dev nD) : Cert.Cell.Weights := m ((c : Thread nD τ).loc main_arg5)
abbrev aWrh (c : Dev nD) : Cert.Cell.Weights := m ((c : Thread nD τ).loc main_arg6)
abbrev aBr (c : Dev nD) : Cert.Cell.Bias := m ((c : Thread nD τ).loc main_arg7)
abbrev aWhx (c : Dev nD) : Cert.Cell.Weights := m ((c : Thread nD τ).loc main_arg8)
abbrev aWhrh (c : Dev nD) : Cert.Cell.Weights := m ((c : Thread nD τ).loc main_arg9)
abbrev aBh (c : Dev nD) : Cert.Cell.Bias := m ((c : Thread nD τ).loc main_arg10)

/-! ## What the host laid out before the region -/

theorem entry_wx (c : Dev nD) : (entry m c main_v1 : S1024x3072.Idx → EReal) =
    truncf (F := Ideal) .bf16 (concatenate S1024x3072 1 [⟨S1024x1024, aWzx m c⟩, ⟨S1024x1024, aWrx m c⟩, ⟨S1024x1024, aWhx m c⟩] concatenates_S1024x1024_S1024x1024_S1024x1024_S1024x3072_d1) bitsLt_bf16_f32 := by
  dsimp only [entry, hostOps0]; after_results; try rfl

theorem entry_wh (c : Dev nD) : (entry m c main_v3 : S1024x2048.Idx → EReal) =
    truncf (F := Ideal) .bf16 (concatenate S1024x2048 1 [⟨S1024x1024, aWzh m c⟩, ⟨S1024x1024, aWrh m c⟩] concatenates_S1024x1024_S1024x1024_S1024x2048_d1) bitsLt_bf16_f32 := by
  dsimp only [entry, hostOps0]; after_results; try rfl

theorem entry_wc (c : Dev nD) : (entry m c main_v4 : S1024x1024.Idx → EReal) = truncf (F := Ideal) .bf16 (aWhrh m c) bitsLt_bf16_f32 := by
  dsimp only [entry, hostOps0]; after_results; try rfl

theorem entry_bzr (c : Dev nD) : (entry m c main_v6 : S1x2048.Idx → EReal) =
    shapeCast S1x2048 (concatenate S2048 0 [⟨S1024, aBz m c⟩, ⟨S1024, aBr m c⟩] concatenates_S1024_S1024_S2048_d0) shapeCasts_S2048_S1x2048 := by
  dsimp only [entry, hostOps0]; after_results; try rfl

theorem entry_bh (c : Dev nD) : (entry m c main_v7 : S1x1024.Idx → EReal) = shapeCast S1x1024 (aBh m c) shapeCasts_S1024_S1x1024 := by
  dsimp only [entry, hostOps0]; after_results; try rfl

/-! ## The laid-out weights at an entry -/

theorem wx_update (c : Dev nD) (k q : Fin 1024) :
    (entry m c main_v1 : S1024x3072.Idx → EReal) (ix2 k (⟨0 + q.val, by have := q.isLt; omega⟩ : Fin 3072)) = aWzx m c (ix2 k q) := by
  refine (congrFun (entry_wx m c) _).trans ?_
  exact concatenate_apply_piece _ [⟨S1024x1024, aWzx m c⟩, ⟨S1024x1024, aWrx m c⟩, ⟨S1024x1024, aWhx m c⟩] concatenates_S1024x1024_S1024x1024_S1024x1024_S1024x3072_d1 _ 0 (by simp) S1024x1024 (aWzx m c) rfl rfl 0 rfl (ix2 k q)
    (fun b hb => by match b with | ⟨0, _⟩ => rfl | ⟨1, _⟩ => exact absurd rfl hb) rfl
theorem wx_reset (c : Dev nD) (k q : Fin 1024) :
    (entry m c main_v1 : S1024x3072.Idx → EReal) (ix2 k (⟨1024 + q.val, by have := q.isLt; omega⟩ : Fin 3072)) = aWrx m c (ix2 k q) := by
  refine (congrFun (entry_wx m c) _).trans ?_
  exact concatenate_apply_piece _ [⟨S1024x1024, aWzx m c⟩, ⟨S1024x1024, aWrx m c⟩, ⟨S1024x1024, aWhx m c⟩] concatenates_S1024x1024_S1024x1024_S1024x1024_S1024x3072_d1 _ 1 (by simp) S1024x1024 (aWrx m c) rfl rfl 1024 rfl (ix2 k q)
    (fun b hb => by match b with | ⟨0, _⟩ => rfl | ⟨1, _⟩ => exact absurd rfl hb) rfl
theorem wx_cand (c : Dev nD) (k q : Fin 1024) :
    (entry m c main_v1 : S1024x3072.Idx → EReal) (ix2 k (⟨2048 + q.val, by have := q.isLt; omega⟩ : Fin 3072)) = aWhx m c (ix2 k q) := by
  refine (congrFun (entry_wx m c) _).trans ?_
  exact concatenate_apply_piece _ [⟨S1024x1024, aWzx m c⟩, ⟨S1024x1024, aWrx m c⟩, ⟨S1024x1024, aWhx m c⟩] concatenates_S1024x1024_S1024x1024_S1024x1024_S1024x3072_d1 _ 2 (by simp) S1024x1024 (aWhx m c) rfl rfl 2048 rfl (ix2 k q)
    (fun b hb => by match b with | ⟨0, _⟩ => rfl | ⟨1, _⟩ => exact absurd rfl hb) rfl
theorem wh_update (c : Dev nD) (k q : Fin 1024) :
    (entry m c main_v3 : S1024x2048.Idx → EReal) (ix2 k (⟨0 + q.val, by have := q.isLt; omega⟩ : Fin 2048)) = aWzh m c (ix2 k q) := by
  refine (congrFun (entry_wh m c) _).trans ?_
  exact concatenate_apply_piece _ [⟨S1024x1024, aWzh m c⟩, ⟨S1024x1024, aWrh m c⟩] concatenates_S1024x1024_S1024x1024_S1024x2048_d1 _ 0 (by simp) S1024x1024 (aWzh m c) rfl rfl 0 rfl (ix2 k q)
    (fun b hb => by match b with | ⟨0, _⟩ => rfl | ⟨1, _⟩ => exact absurd rfl hb) rfl
theorem wh_reset (c : Dev nD) (k q : Fin 1024) :
    (entry m c main_v3 : S1024x2048.Idx → EReal) (ix2 k (⟨1024 + q.val, by have := q.isLt; omega⟩ : Fin 2048)) = aWrh m c (ix2 k q) := by
  refine (congrFun (entry_wh m c) _).trans ?_
  exact concatenate_apply_piece _ [⟨S1024x1024, aWzh m c⟩, ⟨S1024x1024, aWrh m c⟩] concatenates_S1024x1024_S1024x1024_S1024x2048_d1 _ 1 (by simp) S1024x1024 (aWrh m c) rfl rfl 1024 rfl (ix2 k q)
    (fun b hb => by match b with | ⟨0, _⟩ => rfl | ⟨1, _⟩ => exact absurd rfl hb) rfl

theorem wc_at (c : Dev nD) (k q : Fin 1024) : (entry m c main_v4 : S1024x1024.Idx → EReal) (ix2 k q) = aWhrh m c (ix2 k q) :=
  congrFun (entry_wc m c) _

theorem bzr_update (c : Dev nD) (q : Fin 1024) :
    (entry m c main_v6 : S1x2048.Idx → EReal) (ix2 (0 : Fin 1) (⟨0 + q.val, by have := q.isLt; omega⟩ : Fin 2048)) = aBz m c (ix1 q) := by
  refine (congrFun (entry_bzr m c) _).trans ?_
  refine (shapeCast_a_1a_apply _ shapeCasts_S2048_S1x2048 (0 : Fin 1) _).trans ?_
  exact concatenate_apply_piece _ [⟨S1024, aBz m c⟩, ⟨S1024, aBr m c⟩] concatenates_S1024_S1024_S2048_d0 _ 0 (by simp) S1024 (aBz m c) rfl rfl 0 rfl (ix1 q)
    (fun b hb => by match b with | ⟨0, _⟩ => exact absurd rfl hb) rfl

theorem bzr_reset (c : Dev nD) (q : Fin 1024) :
    (entry m c main_v6 : S1x2048.Idx → EReal) (ix2 (0 : Fin 1) (⟨1024 + q.val, by have := q.isLt; omega⟩ : Fin 2048)) = aBr m c (ix1 q) := by
  refine (congrFun (entry_bzr m c) _).trans ?_
  refine (shapeCast_a_1a_apply _ shapeCasts_S2048_S1x2048 (0 : Fin 1) _).trans ?_
  exact concatenate_apply_piece _ [⟨S1024, aBz m c⟩, ⟨S1024, aBr m c⟩] concatenates_S1024_S1024_S2048_d0 _ 1 (by simp) S1024 (aBr m c) rfl rfl 1024 rfl (ix1 q)
    (fun b hb => by match b with | ⟨0, _⟩ => exact absurd rfl hb) rfl

theorem bh_at (c : Dev nD) (q : Fin 1024) : (entry m c main_v7 : S1x1024.Idx → EReal) (ix2 (0 : Fin 1) q) = aBh m c (ix1 q) := by
  refine (congrFun (entry_bh m c) _).trans ?_
  exact shapeCast_a_1a_apply _ shapeCasts_S1024_S1x1024 (0 : Fin 1) q

/-! ## The windows' blocks -/

/-- The sixteen grid points. -/
theorem sixteen : cfg0.N = 16 := N_0

/-- Row `u` of the block at point `t` is row `256 t + u` of the array. -/
def rowOf (t : Fin cfg0.N) (u : Fin 256) : Fin 4096 :=
  ⟨256 * t.val + u.val, by have := t.isLt; have h := sixteen; have := u.isLt; omega⟩

/-- The row-blocked windows (input, state, new state) are at block `(t, 0)` at point `t`. -/
theorem rows_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

/-- The weight and bias windows are at block `(0, 0)` at every point. -/
theorem whole_idx : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Window 0's block at point `t` is rows `256 t … 256 t + 255` of argument 0. -/
theorem blkX (c : Dev nD) (t : Fin cfg0.N) (u : Fin 256) (k : Fin 1024) :
    (blockAt m c 0 t : S256x1024.Idx → EReal) (ix2 u k) = aX m c (ix2 (rowOf t u) k) := by
  show (entry m c main_arg0 : S4096x1024.Idx → EReal) (((cfg0.win 0).blk t).view.emb (ix2 u k)) = _
  rw [entry_main_arg0]
  refine congrArg (aX m c) (funext fun a => Fin.ext ?_)
  have e := rows_idx t
  match a with
  | ⟨0, _⟩ => show win0_0.index t (0 : Fin 2) * 256 + 1 * u.val = 256 * t.val + u.val; omega
  | ⟨1, _⟩ => show win0_0.index t (1 : Fin 2) * 1024 + 1 * k.val = k.val; omega
/-- Window 1's block at point `t` is rows `256 t … 256 t + 255` of argument 1. -/
theorem blkH (c : Dev nD) (t : Fin cfg0.N) (u : Fin 256) (k : Fin 1024) :
    (blockAt m c 1 t : S256x1024.Idx → EReal) (ix2 u k) = aH m c (ix2 (rowOf t u) k) := by
  show (entry m c main_arg1 : S4096x1024.Idx → EReal) (((cfg0.win 1).blk t).view.emb (ix2 u k)) = _
  rw [entry_main_arg1]
  refine congrArg (aH m c) (funext fun a => Fin.ext ?_)
  have e := rows_idx t
  match a with
  | ⟨0, _⟩ => show win0_1.index t (0 : Fin 2) * 256 + 1 * u.val = 256 * t.val + u.val; omega
  | ⟨1, _⟩ => show win0_1.index t (1 : Fin 2) * 1024 + 1 * k.val = k.val; omega
/-- Window 2 is its whole array at every grid point. -/
theorem blkWx (c : Dev nD) (t : Fin cfg0.N) (k : Fin 1024) (j : Fin 3072) :
    (blockAt m c 2 t : S1024x3072.Idx → EReal) (ix2 k j) = (entry m c main_v1 : S1024x3072.Idx → EReal) (ix2 k j) := by
  show (entry m c main_v1 : S1024x3072.Idx → EReal) (((cfg0.win 2).blk t).view.emb (ix2 k j)) = _
  refine congrArg (entry m c main_v1 : S1024x3072.Idx → EReal) (funext fun a => Fin.ext ?_)
  have e := whole_idx t
  match a with
  | ⟨0, _⟩ => show win0_2.index t (0 : Fin 2) * 1024 + 1 * k.val = k.val; omega
  | ⟨1, _⟩ => show win0_2.index t (1 : Fin 2) * 3072 + 1 * j.val = j.val; omega
/-- Window 3 is its whole array at every grid point. -/
theorem blkWh (c : Dev nD) (t : Fin cfg0.N) (k : Fin 1024) (j : Fin 2048) :
    (blockAt m c 3 t : S1024x2048.Idx → EReal) (ix2 k j) = (entry m c main_v3 : S1024x2048.Idx → EReal) (ix2 k j) := by
  show (entry m c main_v3 : S1024x2048.Idx → EReal) (((cfg0.win 3).blk t).view.emb (ix2 k j)) = _
  refine congrArg (entry m c main_v3 : S1024x2048.Idx → EReal) (funext fun a => Fin.ext ?_)
  have e := whole_idx t
  match a with
  | ⟨0, _⟩ => show win0_3.index t (0 : Fin 2) * 1024 + 1 * k.val = k.val; omega
  | ⟨1, _⟩ => show win0_3.index t (1 : Fin 2) * 2048 + 1 * j.val = j.val; omega
/-- Window 4 is its whole array at every grid point. -/
theorem blkWc (c : Dev nD) (t : Fin cfg0.N) (k : Fin 1024) (j : Fin 1024) :
    (blockAt m c 4 t : S1024x1024.Idx → EReal) (ix2 k j) = (entry m c main_v4 : S1024x1024.Idx → EReal) (ix2 k j) := by
  show (entry m c main_v4 : S1024x1024.Idx → EReal) (((cfg0.win 4).blk t).view.emb (ix2 k j)) = _
  refine congrArg (entry m c main_v4 : S1024x1024.Idx → EReal) (funext fun a => Fin.ext ?_)
  have e := whole_idx t
  match a with
  | ⟨0, _⟩ => show win0_4.index t (0 : Fin 2) * 1024 + 1 * k.val = k.val; omega
  | ⟨1, _⟩ => show win0_4.index t (1 : Fin 2) * 1024 + 1 * j.val = j.val; omega
/-- Window 5 is its whole array at every grid point. -/
theorem blkBzr (c : Dev nD) (t : Fin cfg0.N) (k : Fin 1) (j : Fin 2048) :
    (blockAt m c 5 t : S1x2048.Idx → EReal) (ix2 k j) = (entry m c main_v6 : S1x2048.Idx → EReal) (ix2 k j) := by
  show (entry m c main_v6 : S1x2048.Idx → EReal) (((cfg0.win 5).blk t).view.emb (ix2 k j)) = _
  refine congrArg (entry m c main_v6 : S1x2048.Idx → EReal) (funext fun a => Fin.ext ?_)
  have e := whole_idx t
  match a with
  | ⟨0, _⟩ => show win0_5.index t (0 : Fin 2) * 1 + 1 * k.val = k.val; omega
  | ⟨1, _⟩ => show win0_5.index t (1 : Fin 2) * 2048 + 1 * j.val = j.val; omega
/-- Window 6 is its whole array at every grid point. -/
theorem blkBhc (c : Dev nD) (t : Fin cfg0.N) (k : Fin 1) (j : Fin 1024) :
    (blockAt m c 6 t : S1x1024.Idx → EReal) (ix2 k j) = (entry m c main_v7 : S1x1024.Idx → EReal) (ix2 k j) := by
  show (entry m c main_v7 : S1x1024.Idx → EReal) (((cfg0.win 6).blk t).view.emb (ix2 k j)) = _
  refine congrArg (entry m c main_v7 : S1x1024.Idx → EReal) (funext fun a => Fin.ext ?_)
  have e := whole_idx t
  match a with
  | ⟨0, _⟩ => show win0_6.index t (0 : Fin 2) * 1 + 1 * k.val = k.val; omega
  | ⟨1, _⟩ => show win0_6.index t (1 : Fin 2) * 1024 + 1 * j.val = j.val; omega

end Cert.KernelIdeal.Blocks

end
-- ==== Proof.KernelIsCell.lean ====
import proofs.«108619_j78795470012673_2_alg».proof.Proof.CellBlocks

/-!
# The kernel computes the cell

At every grid point the body stores, into the block of rows `256 t … 256 t + 255` of the result, the cell's new
state on those rows; the sixteen blocks tile the 4096 rows; so after the run the result array is the cell's new
state, entry by entry, and the argument arrays are as launched.
-/

set_option maxRecDepth 16384

noncomputable section

namespace Cert.KernelIdeal.AsCell

open Cert.KernelIdeal Cert.KernelIdeal.Gen Cert.KernelIdeal.Cell Cert.KernelIdeal.Step Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## A block's gates are the cell's gates on its rows -/

/-- A gate on the block at point `t`, taking columns `o + q` of the laid-out weights that are column `q` of `Wx`,
    `Wh` and `b`, is the cell's gate with those weights at row `256 t + u`: the two sums agree term by term. -/
theorem gate_rows (c : Dev nD) (t : Fin cfg0.N) (u : Fin 256) (o : Nat) (ho : o + 1024 ≤ 2048)
    (Wx Wh : Cert.Cell.Weights) (b : Cert.Cell.Bias)
    (hx : ∀ k q : Fin 1024, (entry m c main_v1 : S1024x3072.Idx → EReal) (ix2 k (⟨o + q.val, by have := q.isLt; omega⟩ : Fin 3072)) = Wx (ix2 k q))
    (hh : ∀ k q : Fin 1024, (entry m c main_v3 : S1024x2048.Idx → EReal) (ix2 k (⟨o + q.val, by have := q.isLt; omega⟩ : Fin 2048)) = Wh (ix2 k q))
    (hb : ∀ q : Fin 1024, (entry m c main_v6 : S1x2048.Idx → EReal) (ix2 (0 : Fin 1) (⟨o + q.val, by have := q.isLt; omega⟩ : Fin 2048)) = b (ix1 q))
    (q : Fin 1024) :
    gateBlk (blockAt m c 0 t) (blockAt m c 1 t) (blockAt m c 2 t) (blockAt m c 3 t) (blockAt m c 5 t) o ho u q
      = Cert.Cell.gate (aX m c) (aH m c) Wx Wh b (rowOf t u) q := by
  unfold gateBlk Cert.Cell.gate Cert.Cell.pre
  refine congrArg Ideal.logistic (congrArg₂ (· + ·) (congrArg₂ (· + ·) (Finset.sum_congr rfl fun k _ => ?_) (Finset.sum_congr rfl fun k _ => ?_)) ?_)
  · exact congrArg₂ (· * ·) (blkX m c t u k) ((blkWx m c t k _).trans (hx k q))
  · exact congrArg₂ (· * ·) (blkH m c t u k) ((blkWh m c t k _).trans (hh k q))
  · exact (blkBzr m c t 0 _).trans (hb q)

/-- The candidate on the block is the cell's candidate on its rows. -/
theorem cand_rows (c : Dev nD) (t : Fin cfg0.N) (u : Fin 256) (q : Fin 1024) :
    candBlk (blockAt m c 0 t) (blockAt m c 1 t) (blockAt m c 2 t) (blockAt m c 3 t) (blockAt m c 5 t) (blockAt m c 4 t) (blockAt m c 6 t) u q
      = Cert.Cell.candidate (aX m c) (aH m c) (aWrx m c) (aWrh m c) (aBr m c) (aWhx m c) (aWhrh m c) (aBh m c) (rowOf t u) q := by
  unfold candBlk resetBlk Cert.Cell.candidate
  refine congrArg Ideal.tanh (congrArg₂ (· + ·) (congrArg₂ (· + ·) (Finset.sum_congr rfl fun k _ => ?_) (Finset.sum_congr rfl fun k _ => ?_)) ?_)
  · exact congrArg₂ (· * ·) (blkX m c t u k) ((blkWx m c t k _).trans (wx_cand m c k q))
  · refine congrArg₂ (· * ·) (congrArg₂ (· * ·) ?_ (blkH m c t u k)) ((blkWc m c t k q).trans (wc_at m c k q))
    exact gate_rows m c t u 1024 (by omega) (aWrx m c) (aWrh m c) (aBr m c) (wx_reset m c) (wh_reset m c) (bzr_reset m c) k
  · exact (blkBhc m c t 0 q).trans (bh_at m c q)

/-! ## What a grid point stores -/

/-- The cell's new state on core `c`, as a whole array. -/
abbrev newState (c : Dev nD) : S4096x1024.Idx → EReal :=
  Cert.Cell.nextRows (aX m c) (aH m c) (aWzx m c) (aWzh m c) (aBz m c) (aWrx m c) (aWrh m c) (aBr m c) (aWhx m c) (aWhrh m c) (aBh m c)

/-- The step's result at `(u, q)` of the block at point `t` is the new state at `(256 t + u, q)`. -/
theorem step_rows (c : Dev nD) (t : Fin cfg0.N) (u : Fin 256) (q : Fin 1024) :
    stepOut (F := Ideal) (blockAt m c 0 t) (blockAt m c 1 t) (blockAt m c 2 t) (blockAt m c 3 t) (blockAt m c 4 t) (blockAt m c 5 t) (blockAt m c 6 t) (ix2 u q) = newState m c (ix2 (rowOf t u) q) := by
  refine (stepOut_apply _ _ _ _ _ _ _ u q).trans ?_
  unfold outBlk
  have hz := gate_rows m c t u 0 (by omega) (aWzx m c) (aWzh m c) (aBz m c) (wx_update m c) (wh_update m c) (bzr_update m c) q
  exact congrArg₂ (· + ·) (congrArg₂ (· * ·) hz (blkH m c t u q))
    (congrArg₂ (· * ·) (congrArg (Ideal.ofBits .f32 0x3F800000#32 - ·) hz) (cand_rows m c t u q))

theorem step_rows_idx (c : Dev nD) (t : Fin cfg0.N) (y : S256x1024.Idx) :
    stepOut (F := Ideal) (blockAt m c 0 t) (blockAt m c 1 t) (blockAt m c 2 t) (blockAt m c 3 t) (blockAt m c 4 t) (blockAt m c 5 t) (blockAt m c 6 t) y = newState m c (ix2 (rowOf t (y 0)) (y 1)) := by
  obtain ⟨u, q, rfl⟩ : ∃ (u : Fin 256) (q : Fin 1024), y = ix2 u q := ⟨y 0, y 1, eq_ix2 y⟩
  exact step_rows m c t u q

/-- An entry of the result's block at point `t` sits at row `256 t +` its row, same column. -/
theorem out_emb (t : Fin cfg0.N) (y : S256x1024.Idx) :
    (((cfg0.win 7).blk t).view.emb y : S4096x1024.Idx) = ix2 (rowOf t (y 0)) (y 1) := by
  funext a
  apply Fin.ext
  have e := rows_idx t
  match a with
  | ⟨0, _⟩ => show win0_7.index t (0 : Fin 2) * 256 + 1 * (y 0).val = 256 * t.val + (y 0).val; omega
  | ⟨1, _⟩ => show win0_7.index t (1 : Fin 2) * 1024 + 1 * (y 1).val = (y 1).val; omega

/-- What point `t` writes back is block `t` of the new state. -/
theorem flushed_eq (c : Dev nD) (t : Fin cfg0.N) :
    (dats m 0 c).flushed 7 t = ((cfg0.win 7).blk t).view.read (Elt Ideal) (newState m c) := by
  show (cfg0.win 7).cut (grid0.coords t) ((dats m 0 c).after 7 t) = _
  rw [after_7]
  funext y
  show stepOut (F := Ideal) (blockAt m c 0 t) (blockAt m c 1 t) (blockAt m c 2 t) (blockAt m c 3 t) (blockAt m c 4 t) (blockAt m c 5 t) (blockAt m c 6 t) y = newState m c (((cfg0.win 7).blk t).view.emb y)
  rw [out_emb]
  exact step_rows_idx m c t y

/-! ## The sixteen blocks tile the result -/

theorem mem_out_blk (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8).slice (win0_7.rect t)).set ↔ _
  rw [View.set_slice_whole, Rect.mem_set_unit]
  exact Iff.rfl

/-- Row `r` is in the block of point `r / 256`. -/
theorem covered (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN := sixteen
  obtain ⟨t, ht⟩ : ∃ t : Fin cfg0.N, t.val = (i 0).val / 256 := ⟨⟨(i 0).val / 256, by omega⟩, rfl⟩
  refine ⟨t, flush0_7 t, ?_⟩
  rw [mem_out_blk]
  have e := rows_idx t
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- After the run the result array is the cell's new state. -/
theorem final (c : Dev nD) : (dats m 0 c).arrAt 7 cfg0.N = newState m c :=
  (dats m 0 c).arrAt_eq_of_cover 7 (newState m c) (fun t _ => flushed_eq m c t) covered

/-! ## The run, read -/

/-- Every weakly fair execution of the kernel's program terminates with the result array at the cell's new state
    of the launched arguments, and the arguments unchanged. -/
theorem run : θ_run defs (onTc (τ := τ) (main (F := Ideal))) ⟨m, fun _ => 0, ρ⟩ fun r => ∀ c : Dev nD,
      r.2.mem ((c.tc : Thread nD τ).loc main_v8) = newState m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 7).trans (final m c), args_kept_at m (dats m) (A_eq m) r h c⟩)
    (run_main m ρ)

end Cert.KernelIdeal.AsCell

end
-- ==== Proof.RefIsCell.lean ====
import proofs.«108619_j78795470012673_2_alg».proof.Proof.Gen.ReferenceIdeal.Read
import proofs.«108619_j78795470012673_2_alg».proof.Proof.CellSpec

/-!
# The reference computes the cell

Read one operation at a time at the entry `(p, q)`, the reference's program is the cell of the specification: each
of its five plain matrix products is the sum over the contracted entry `k` of `left (p, k) · right (k, q)`; each bias
is broadcast along the rows, so it is read at `q`; each gate's `1 / (1 + e^(−s))` is the logistic function; and the
last lines are `z · h + (1 − z) · tanh(…)`.
-/

noncomputable section

namespace Cert.ReferenceIdeal.AsCell

open Cert.ReferenceIdeal Cert.ReferenceIdeal.Read Idealize.ShloMosaic Idealize.ShloMosaic.ValueIdx

/-! ## Where each operation reads its operands -/

theorem lidx_v0 (p : Fin 4096) (q k : Fin 1024) : lidx_main_v0 (ix2 p q) k = ix2 p k :=
  funext fun a => Fin.ext (by match a with | ⟨0, _⟩ => rfl | ⟨1, _⟩ => rfl)
theorem ridx_v0 (p : Fin 4096) (q k : Fin 1024) : ridx_main_v0 (ix2 p q) k = ix2 k q :=
  funext fun a => Fin.ext (by match a with | ⟨0, _⟩ => rfl | ⟨1, _⟩ => rfl)
theorem lidx_v1 (p : Fin 4096) (q k : Fin 1024) : lidx_main_v1 (ix2 p q) k = ix2 p k :=
  funext fun a => Fin.ext (by match a with | ⟨0, _⟩ => rfl | ⟨1, _⟩ => rfl)
theorem ridx_v1 (p : Fin 4096) (q k : Fin 1024) : ridx_main_v1 (ix2 p q) k = ix2 k q :=
  funext fun a => Fin.ext (by match a with | ⟨0, _⟩ => rfl | ⟨1, _⟩ => rfl)
theorem lidx_v12 (p : Fin 4096) (q k : Fin 1024) : lidx_main_v12 (ix2 p q) k = ix2 p k :=
  funext fun a => Fin.ext (by match a with | ⟨0, _⟩ => rfl | ⟨1, _⟩ => rfl)
theorem ridx_v12 (p : Fin 4096) (q k : Fin 1024) : ridx_main_v12 (ix2 p q) k = ix2 k q :=
  funext fun a => Fin.ext (by match a with | ⟨0, _⟩ => rfl | ⟨1, _⟩ => rfl)
theorem lidx_v13 (p : Fin 4096) (q k : Fin 1024) : lidx_main_v13 (ix2 p q) k = ix2 p k :=
  funext fun a => Fin.ext (by match a with | ⟨0, _⟩ => rfl | ⟨1, _⟩ => rfl)
theorem ridx_v13 (p : Fin 4096) (q k : Fin 1024) : ridx_main_v13 (ix2 p q) k = ix2 k q :=
  funext fun a => Fin.ext (by match a with | ⟨0, _⟩ => rfl | ⟨1, _⟩ => rfl)
theorem lidx_v24 (p : Fin 4096) (q k : Fin 1024) : lidx_main_v24 (ix2 p q) k = ix2 p k :=
  funext fun a => Fin.ext (by match a with | ⟨0, _⟩ => rfl | ⟨1, _⟩ => rfl)
theorem ridx_v24 (p : Fin 4096) (q k : Fin 1024) : ridx_main_v24 (ix2 p q) k = ix2 k q :=
  funext fun a => Fin.ext (by match a with | ⟨0, _⟩ => rfl | ⟨1, _⟩ => rfl)
theorem lidx_v26 (p : Fin 4096) (q k : Fin 1024) : lidx_main_v26 (ix2 p q) k = ix2 p k :=
  funext fun a => Fin.ext (by match a with | ⟨0, _⟩ => rfl | ⟨1, _⟩ => rfl)
theorem ridx_v26 (p : Fin 4096) (q k : Fin 1024) : ridx_main_v26 (ix2 p q) k = ix2 k q :=
  funext fun a => Fin.ext (by match a with | ⟨0, _⟩ => rfl | ⟨1, _⟩ => rfl)
theorem bias_v4 (p : Fin 4096) (q : Fin 1024) : idx_main_v3 (idx_main_v4 (ix2 p q)) = ix1 q :=
  funext fun a => Fin.ext (by match a with | ⟨0, _⟩ => rfl)
theorem bias_v16 (p : Fin 4096) (q : Fin 1024) : idx_main_v15 (idx_main_v16 (ix2 p q)) = ix1 q :=
  funext fun a => Fin.ext (by match a with | ⟨0, _⟩ => rfl)
theorem bias_v29 (p : Fin 4096) (q : Fin 1024) : idx_main_v28 (idx_main_v29 (ix2 p q)) = ix1 q :=
  funext fun a => Fin.ext (by match a with | ⟨0, _⟩ => rfl)

/-! ## The update gate -/

theorem pre_update (x0 x1 : (⟨S4096x1024, .f32⟩ : BufTy).Contents (Elt Ideal)) (x2 x3 : (⟨S1024x1024, .f32⟩ : BufTy).Contents (Elt Ideal)) (x4 : (⟨S1024, .f32⟩ : BufTy).Contents (Elt Ideal)) (p : Fin 4096) (q : Fin 1024) :
    val_main_v5 (F := Ideal) x0 x1 x2 x3 x4 (ix2 p q) = Cert.Cell.pre x0 x1 x2 x3 x4 p q := by
  rw [val_main_v5_apply, val_main_v2_apply, val_main_v0_apply, val_main_v1_apply, val_main_v4_apply, val_main_v3_apply, bias_v4]
  simp only [lidx_v0, ridx_v0, lidx_v1, ridx_v1, Ideal.addf_def]
  rfl

theorem update (x0 x1 : (⟨S4096x1024, .f32⟩ : BufTy).Contents (Elt Ideal)) (x2 x3 : (⟨S1024x1024, .f32⟩ : BufTy).Contents (Elt Ideal)) (x4 : (⟨S1024, .f32⟩ : BufTy).Contents (Elt Ideal)) (p : Fin 4096) (q : Fin 1024) :
    val_main_v11 (F := Ideal) x0 x1 x2 x3 x4 (ix2 p q) = Cert.Cell.gate x0 x1 x2 x3 x4 p q := by
  rw [val_main_v11_apply, val_main_v10_apply, val_main_cst_0_apply, val_main_v9_apply, val_main_v8_apply, val_main_cst_apply,
    val_main_v7_apply, val_main_v6_apply, pre_update]
  simp only [Ideal.hostDivf_def, Ideal.addf_def, Ideal.hostUnary_exp_def, Ideal.hostNegf_def, Ideal.negf_def, Ideal.ofBits_def]
  exact Cert.Cell.quotient_is_logistic _

/-! ## The reset gate -/

theorem pre_reset (x0 x1 : (⟨S4096x1024, .f32⟩ : BufTy).Contents (Elt Ideal)) (x5 x6 : (⟨S1024x1024, .f32⟩ : BufTy).Contents (Elt Ideal)) (x7 : (⟨S1024, .f32⟩ : BufTy).Contents (Elt Ideal)) (p : Fin 4096) (q : Fin 1024) :
    val_main_v17 (F := Ideal) x0 x1 x5 x6 x7 (ix2 p q) = Cert.Cell.pre x0 x1 x5 x6 x7 p q := by
  rw [val_main_v17_apply, val_main_v14_apply, val_main_v12_apply, val_main_v13_apply, val_main_v16_apply, val_main_v15_apply, bias_v16]
  simp only [lidx_v12, ridx_v12, lidx_v13, ridx_v13, Ideal.addf_def]
  rfl

theorem reset (x0 x1 : (⟨S4096x1024, .f32⟩ : BufTy).Contents (Elt Ideal)) (x5 x6 : (⟨S1024x1024, .f32⟩ : BufTy).Contents (Elt Ideal)) (x7 : (⟨S1024, .f32⟩ : BufTy).Contents (Elt Ideal)) (p : Fin 4096) (q : Fin 1024) :
    val_main_v23 (F := Ideal) x0 x1 x5 x6 x7 (ix2 p q) = Cert.Cell.gate x0 x1 x5 x6 x7 p q := by
  rw [val_main_v23_apply, val_main_v22_apply, val_main_cst_2_apply, val_main_v21_apply, val_main_v20_apply, val_main_cst_1_apply,
    val_main_v19_apply, val_main_v18_apply, pre_reset]
  simp only [Ideal.hostDivf_def, Ideal.addf_def, Ideal.hostUnary_exp_def, Ideal.hostNegf_def, Ideal.negf_def, Ideal.ofBits_def]
  exact Cert.Cell.quotient_is_logistic _

/-! ## The candidate state and the new state -/

theorem cand (x0 x1 : (⟨S4096x1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (p : Fin 4096) (q : Fin 1024) :
    val_main_v31 (F := Ideal) x0 x1 x5 x6 x7 x8 x9 x10 (ix2 p q) = Cert.Cell.candidate x0 x1 x5 x6 x7 x8 x9 x10 p q := by
  rw [val_main_v31_apply, val_main_v30_apply, val_main_v27_apply, val_main_v24_apply, val_main_v26_apply, val_main_v29_apply,
    val_main_v28_apply, bias_v29]
  simp only [lidx_v24, ridx_v24, lidx_v26, ridx_v26, val_main_v25_apply, reset, Ideal.addf_def, Ideal.mulf_def, Ideal.hostUnary_tanh_def]
  rfl

/-- The reference's second result, at every entry, is the specification's new state. -/
theorem result (x0 x1 : (⟨S4096x1024, .f32⟩ : BufTy).Contents (Elt Ideal)) (x2 x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) :
    val_main_v36 (F := Ideal) x0 x1 x2 x3 x4 x5 x6 x7 x8 x9 x10 = Cert.Cell.nextRows x0 x1 x2 x3 x4 x5 x6 x7 x8 x9 x10 := by
  funext j
  obtain ⟨p, q, rfl⟩ : ∃ (p : Fin 4096) (q : Fin 1024), j = ix2 p q := ⟨j 0, j 1, eq_ix2 j⟩
  rw [val_main_v36_apply, val_main_v32_apply, val_main_v35_apply, val_main_v34_apply, val_main_v33_apply, val_main_cst_3_apply,
    update, cand]
  simp only [Ideal.addf_def, Ideal.mulf_def, Ideal.subf_def, Ideal.ofBits_def]
  rfl

end Cert.ReferenceIdeal.AsCell

end
-- ==== Proof.lean ====
/-
  A gated recurrent cell on 4096 rows of width 1024, computed by one kernel on sixteen blocks of 256 rows, against
  the plain reference

      z  = σ(x·Wzx + h·Wzh + bz),   r = σ(x·Wrx + h·Wrh + br),
      c  = tanh(x·Whx + (r ⊙ h)·Whrh + bh),   h' = z ⊙ h + (1 − z) ⊙ c,

  returning `(h, h')`. Over the extended reals the two programs are one function of the arguments:

  * the kernel multiplies `x` once by the three input-side matrices laid side by side and `h` once by the two gate
    matrices laid side by side; a column of such a product is the same sum over the 1024 contracted entries as the
    reference's separate product, term by term, so no law of arithmetic beyond reading the sums is used and the
    precondition is never opened;
  * a change of float format is the identity there, and a product into a zero accumulator is the plain sum;
  * the kernel's logistic function is `1 / (1 + e^(−s))`, which is how the reference spells it;
  * entry `(p, q)` of every gate depends on row `p` of `x` and `h` only, so the block of rows `256 t … 256 t + 255`
    of `h'` is the cell on those rows, and the sixteen blocks tile the result.

  The frames: each kernel program is eight host lines that lay the weights out (none writes an argument) and one
  region whose body loads its seven input blocks whole and stores the output block whole; the reference is host lines
  only.  Nothing was rewritten in the idealized kernel, so the idealization conjunct is trivial.
-/
import proofs.«108619_j78795470012673_2_alg».proof.Defs
import proofs.«108619_j78795470012673_2_alg».proof.Proof.Gen.Kernel
import proofs.«108619_j78795470012673_2_alg».proof.Proof.Gen.KernelIdeal
import proofs.«108619_j78795470012673_2_alg».proof.Proof.Gen.ReferenceIdeal
import proofs.«108619_j78795470012673_2_alg».proof.Proof.Gen.Pre_finite_inputs
import proofs.«108619_j78795470012673_2_alg».proof.Proof.Gen.ReferenceIdeal.Run
import proofs.«108619_j78795470012673_2_alg».proof.Proof.Gen.ReferenceIdeal.Read
import proofs.«108619_j78795470012673_2_alg».proof.Proof.KernelRun
import proofs.«108619_j78795470012673_2_alg».proof.Proof.KernelIdealRun
import proofs.«108619_j78795470012673_2_alg».proof.Proof.KernelIsCell
import proofs.«108619_j78795470012673_2_alg».proof.Proof.RefIsCell
import Idealize.ShloMosaic.Adequacy
import Idealize.ShloMosaic.Init

noncomputable section

namespace Cert.Proof

open Idealize.ShloMosaic Idealize.ShloMosaic.TcCoe Idealize.SL.Sem

/-- The kernel's program as printed runs to the end, faults nowhere and leaves its arguments unchanged. -/
theorem frame_kernel : Cert.frame_Kernel := fun m ρ _ => Cert.Kernel.Cell.frame m ρ

/-- So does its idealization. -/
theorem frame_kernelIdeal : Cert.frame_KernelIdeal := fun m ρ _ => Cert.KernelIdeal.Cell.frame m ρ

/-- The reference is host lines only: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments both programs end with the state `h` unchanged as the first result
    and the cell's new state of the arguments as the second. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => Cert.KernelIdeal.AsCell.newState m c, ?_, ?_⟩
  · exact (θ_run Cert.KernelIdeal.defs _ _).mono (fun r h c => ⟨(h c).2.2.1, (h c).1, (h c).2⟩)
      (Cert.KernelIdeal.AsCell.run m ρ)
  · refine (θ_run Cert.ReferenceIdeal.defs _ _).mono (fun r h c => ⟨(h c).1.trans (hagree c).2.1, (h c).2.1.trans ?_, (h c).2.2⟩)
      (Cert.ReferenceIdeal.Value.run (F := Ideal) m' ρ')
    obtain ⟨h0, h1, h2, h3, h4, h5, h6, h7, h8, h9, h10⟩ := hagree c
    rw [h0, h1, h2, h3, h4, h5, h6, h7, h8, h9, h10]
    exact (Cert.ReferenceIdeal.Read.val_main_v36_eq _ _ _ _ _ _ _ _ _ _ _).trans
      (Cert.ReferenceIdeal.AsCell.result _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
